-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x2048 : Shape := ⟨2, ![2048, 2048]⟩
abbrev S2048x4096 : Shape := ⟨2, ![2048, 4096]⟩
abbrev S2048 : Shape := ⟨1, ![2048]⟩
abbrev S_ : Shape := ⟨0, ![]⟩

class Facts : Prop where
  bcast_S_S2048x2048 : S_.BroadcastsInDim S2048x2048 (![] : Fin 0 → Fin S2048x2048.rank)
  reducesTo_S2048x2048_S_d0_1 : S2048x2048.ReducesTo [0, 1] S_
  h_S_ : 0 < S_.numel
  bcast_S_S2048x4096 : S_.BroadcastsInDim S2048x4096 (![] : Fin 0 → Fin S2048x4096.rank)
  reducesTo_S2048x4096_S_d0_1 : S2048x4096.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x4096 .f32) (main_arg5 : FVec F S2048 .f32) (main_v13 : IVec S_ 1) (main_v16 : IVec S2048 1) : IVec S_ 1 :=
  let main_c_5 : IVec S_ 1 := constantI S_ 1 1#1
  let main_v17 : IVec S_ 1 := (fun x v => Host.reduce IntOp.andi x v reducesTo_S2048_S_d0 h_S_) main_v16 main_c_5
  let main_v18 : IVec S_ 1 := andi main_v13 main_v17
  let main_v19 : FVec F S2048x4096 .f32 := Host.absf main_arg4
  let main_cst_6 : FVec F S_ .f32 := constant S_ .f32 0x7F800000#32
  let main_v20 : FVec F S2048x4096 .f32 := broadcastInDim S2048x4096 ![] bcast_S_S2048x4096 main_cst_6
  let main_v21 : IVec S2048x4096 1 := cmpf .olt main_v19 main_v20
  let main_c_7 : IVec S_ 1 := constantI S_ 1 1#1
  let main_v22 : IVec S_ 1 := (fun x v => Host.reduce IntOp.andi x v reducesTo_S2048x4096_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  main_v28

def fn {F : FTy → Type} [FloatOps F] (main_arg0 : FVec F S2048x2048 .f32) (main_arg1 : FVec F S2048x2048 .f32) (main_arg2 : FVec F S2048x4096 .f32) (main_arg3 : FVec F S2048 .f32) (main_arg4 : FVec F S2048x4096 .f32) (main_arg5 : FVec F S2048 .f32) : IVec S_ 1 :=
  let main_v0 : FVec F S2048x2048 .f32 := Host.absf main_arg0
  let main_cst : FVec F S_ .f32 := constant S_ .f32 0x7F800000#32
  let main_v1 : FVec F S2048x2048 .f32 := broadcastInDim S2048x2048 ![] bcast_S_S2048x2048 main_cst
  let main_v2 : IVec S2048x2048 1 := cmpf .olt main_v0 main_v1
  let main_c : IVec S_ 1 := constantI S_ 1 1#1
  let main_v3 : IVec S_ 1 := (fun x v => Host.reduce IntOp.andi x v reducesTo_S2048x2048_S_d0_1 h_S_) main_v2 main_c
  let main_v4 : FVec F S2048x2048 .f32 := Host.absf main_arg1
  let main_cst_0 : FVec F S_ .f32 := constant S_ .f32 0x7F800000#32
  let main_v5 : FVec F S2048x2048 .f32 := broadcastInDim S2048x2048 ![] bcast_S_S2048x2048 main_cst_0
  let main_v6 : IVec S2048x2048 1 := cmpf .olt main_v4 main_v5
  let main_c_1 : IVec S_ 1 := constantI S_ 1 1#1
  let main_v7 : IVec S_ 1 := (fun x v => Host.reduce IntOp.andi x v reducesTo_S2048x2048_S_d0_1 h_S_) main_v6 main_c_1
  let main_v8 : IVec S_ 1 := andi main_v3 main_v7
  let main_v9 : FVec F S2048x4096 .f32 := Host.absf main_arg2
  let main_cst_2 : FVec F S_ .f32 := constant S_ .f32 0x7F800000#32
  let main_v10 : FVec F S2048x4096 .f32 := broadcastInDim S2048x4096 ![] bcast_S_S2048x4096 main_cst_2
  let main_v11 : IVec S2048x4096 1 := cmpf .olt main_v9 main_v10
  let main_c_3 : IVec S_ 1 := constantI S_ 1 1#1
  let main_v12 : IVec S_ 1 := (fun x v => Host.reduce IntOp.andi x v reducesTo_S2048x4096_S_d0_1 h_S_) main_v11 main_c_3
  let main_v13 : IVec S_ 1 := andi main_v8 main_v12
  let main_v14 : FVec F S2048 .f32 := Host.absf main_arg3
  let main_cst_4 : FVec F S_ .f32 := constant S_ .f32 0x7F800000#32
  let main_v15 : FVec F S2048 .f32 := broadcastInDim S2048 ![] bcast_S_S2048 main_cst_4
  let main_v16 : IVec S2048 1 := cmpf .olt main_v14 main_v15
  fn_part1 (F := F) main_arg4 main_arg5 main_v13 main_v16
-- ==== Kernel.lean ====
abbrev S2048x2048 : Shape := ⟨2, ![2048, 2048]⟩
abbrev S2048x4096 : Shape := ⟨2, ![2048, 4096]⟩
abbrev S2048 : Shape := ⟨1, ![2048]⟩
abbrev S128x2048 : Shape := ⟨2, ![128, 2048]⟩
abbrev S1x2048 : Shape := ⟨2, ![1, 2048]⟩

abbrev nBuf : Space → Nat
  | .hbm => 15
  | .vmem => 12
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x4096, .f32⟩
  | .hbm, ⟨3, _⟩ => ⟨S2048, .f32⟩
  | .hbm, ⟨4, _⟩ => ⟨S2048x4096, .f32⟩
  | .hbm, ⟨5, _⟩ => ⟨S2048, .f32⟩
  | .hbm, ⟨6, _⟩ => ⟨S2048x2048, .f32⟩
  | .hbm, ⟨7, _⟩ => ⟨S2048x2048, .bf16⟩
  | .hbm, ⟨8, _⟩ => ⟨S2048x2048, .f32⟩
  | .hbm, ⟨9, _⟩ => ⟨S2048x2048, .bf16⟩
  | .hbm, ⟨10, _⟩ => ⟨S2048x2048, .f32⟩
  | .hbm, ⟨11, _⟩ => ⟨S2048x2048, .bf16⟩
  | .hbm, ⟨12, _⟩ => ⟨S2048x2048, .f32⟩
  | .hbm, ⟨13, _⟩ => ⟨S2048x2048, .bf16⟩
  | .hbm, ⟨14, _⟩ => ⟨S2048x2048, .f32⟩
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S2048x2048, .bf16⟩
  | .local _ .vmem, ⟨5, _⟩ => ⟨S2048x2048, .bf16⟩
  | .local _ .vmem, ⟨6, _⟩ => ⟨S2048, .f32⟩
  | .local _ .vmem, ⟨7, _⟩ => ⟨S2048x2048, .bf16⟩
  | .local _ .vmem, ⟨8, _⟩ => ⟨S2048x2048, .bf16⟩
  | .local _ .vmem, ⟨9, _⟩ => ⟨S2048, .f32⟩
  | .local _ .vmem, ⟨10, _⟩ => ⟨S128x2048, .f32⟩
  | .local _ .vmem, ⟨11, _⟩ => ⟨S128x2048, .f32⟩
  | _, _ => ⟨S2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S2048x4096_S2048x2048_0_0 : S2048x4096.Slices ![0, 0] S2048x2048
  bitsLt_bf16_f32 : FTy.bits .bf16 < FTy.bits .f32
  slices_S2048x4096_S2048x2048_0_2048 : S2048x4096.Slices ![0, 2048] S2048x2048
  inb_S128x2048_S128x2048_0_0 : ∀ a, (![0, 0] : Fin 2 → Nat) a + S128x2048.size a ≤ S128x2048.size a
  h_S128x2048 : 0 < S128x2048.numel
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048_S2048_0 : ∀ a, (![0] : Fin 1 → Nat) a + S2048.size a ≤ S2048.size a
  h_S2048 : 0 < S2048.numel
  shapeCasts_S2048_S1x2048 : S2048.ShapeCasts S1x2048
  broadcasts_S1x2048_S128x2048 : S1x2048.Broadcasts S128x2048
  dot_S128x2048_S2048x2048_S128x2048_1_1_0_0_n_n_wf : DotDims.WF S128x2048 S2048x2048 S128x2048 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S2048x2048.size a
  hwx0_0 : ∀ i : grid0.Coords, EltTy.bits .f32 = 32 ∨ (Rect.block (s := S2048x2048) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S2048x2048.size a
  hwx0_1 : ∀ i : grid0.Coords, EltTy.bits .f32 = 32 ∨ (Rect.block (s := S2048x2048) S128x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S2048x2048.size a ≤ S2048x2048.size a
  hwx0_2 : ∀ i : grid0.Coords, EltTy.bits .bf16 = 32 ∨ (Rect.block (s := S2048x2048) S2048x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S2048x2048.size a
  hwx0_3 : ∀ i : grid0.Coords, EltTy.bits .bf16 = 32 ∨ (Rect.block (s := S2048x2048) S2048x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S2048.size a ≤ S2048.size a
  hwx0_4 : ∀ i : grid0.Coords, EltTy.bits .f32 = 32 ∨ (Rect.block (s := S2048) S2048.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S2048x2048.size a ≤ S2048x2048.size a
  hwx0_5 : ∀ i : grid0.Coords, EltTy.bits .bf16 = 32 ∨ (Rect.block (s := S2048x2048) S2048x2048.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2048x2048.size a ≤ S2048x2048.size a
  hwx0_6 : ∀ i : grid0.Coords, EltTy.bits .bf16 = 32 ∨ (Rect.block (s := S2048x2048) S2048x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2048.size a ≤ S2048.size a
  hwx0_7 : ∀ i : grid0.Coords, EltTy.bits .f32 = 32 ∨ (Rect.block (s := S2048) S2048.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S128x2048.size a ≤ S2048x2048.size a
  hwx0_8 : ∀ i : grid0.Coords, EltTy.bits .f32 = 32 ∨ (Rect.block (s := S2048x2048) S128x2048.size (cc0_transform_8 i) (hinb0_8 i)).WholeWords (EltTy.packing .f32)

variable [Facts₀]

def dot_S128x2048_S2048x2048_S128x2048_1_1_0_0_n_n : DotDims S128x2048 S2048x2048 S128x2048 where
  lhsContracting := [1]
  rhsContracting := [1]
  lhsNonContracting := [0]
  rhsNonContracting := [0]
  lhsBatch := []
  rhsBatch := []
  wf := dot_S128x2048_S2048x2048_S128x2048_1_1_0_0_n_n_wf

abbrev win0_0 : Pipeline.Window sig grid0 :=
  Pipeline.Window.ofSpec (Memref.whole main_arg1) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S2048x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S2048x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S2048x2048.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg5) S2048.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S128x2048.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S2048x2048 : Shape := ⟨2, ![2048, 2048]⟩
abbrev S2048x4096 : Shape := ⟨2, ![2048, 4096]⟩
abbrev S2048 : Shape := ⟨1, ![2048]⟩
abbrev S4096x2048 : Shape := ⟨2, ![4096, 2048]⟩
abbrev S1x2048 : Shape := ⟨2, ![1, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x4096, .f32⟩
  | .hbm, ⟨3, _⟩ => ⟨S2048, .f32⟩
  | .hbm, ⟨4, _⟩ => ⟨S2048x4096, .f32⟩
  | .hbm, ⟨5, _⟩ => ⟨S2048, .f32⟩
  | .hbm, ⟨6, _⟩ => ⟨S2048x4096, .f32⟩
  | .hbm, ⟨7, _⟩ => ⟨S4096x2048, .f32⟩
  | .hbm, ⟨8, _⟩ => ⟨S2048x2048, .f32⟩
  | .hbm, ⟨9, _⟩ => ⟨S1x2048, .f32⟩
  | .hbm, ⟨10, _⟩ => ⟨S2048x2048, .f32⟩
  | .hbm, ⟨11, _⟩ => ⟨S2048x2048, .f32⟩
  | .hbm, ⟨12, _⟩ => ⟨S_, .f32⟩
  | .hbm, ⟨13, _⟩ => ⟨S2048x2048, .f32⟩
  | .hbm, ⟨14, _⟩ => ⟨S2048x2048, .f32⟩
  | .hbm, ⟨15, _⟩ => ⟨S_, .f32⟩
  | .hbm, ⟨16, _⟩ => ⟨S2048x2048, .f32⟩
  | .hbm, ⟨17, _⟩ => ⟨S2048x2048, .f32⟩
  | .hbm, ⟨18, _⟩ => ⟨S2048x2048, .f32⟩
  | .hbm, ⟨19, _⟩ => ⟨S2048x4096, .f32⟩
  | .hbm, ⟨20, _⟩ => ⟨S4096x2048, .f32⟩
  | .hbm, ⟨21, _⟩ => ⟨S2048x2048, .f32⟩
  | .hbm, ⟨22, _⟩ => ⟨S1x2048, .f32⟩
  | .hbm, ⟨23, _⟩ => ⟨S2048x2048, .f32⟩
  | .hbm, ⟨24, _⟩ => ⟨S2048x2048, .f32⟩
  | .hbm, ⟨25, _⟩ => ⟨S2048x2048, .f32⟩
  | .hbm, ⟨26, _⟩ => ⟨S2048x2048, .f32⟩
  | .hbm, ⟨27, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  concatenates_S2048x2048_S2048x2048_S2048x4096_d1 : Shape.Concatenates [S2048x2048, S2048x2048] S2048x4096 1
  transposes_S2048x4096_S4096x2048_1_0 : S2048x4096.Transposes [1, 0] S4096x2048
  bcast_S2048_S1x2048_1 : S2048.BroadcastsInDim S1x2048 (![1] : Fin 1 → Fin S1x2048.rank)
  bcast_S1x2048_S2048x2048_0_1 : S1x2048.BroadcastsInDim S2048x2048 (![0, 1] : Fin 2 → Fin S2048x2048.rank)
  bcast_S_S2048x2048 : S_.BroadcastsInDim S2048x2048 (![] : Fin 0 → Fin S2048x2048.rank)
  dot_S2048x4096_S4096x2048_S2048x2048_1_0_0_1_n_n_wf : DotDims.WF S2048x4096 S4096x2048 S2048x2048 [1] [0] [0] [1] [] []

variable [Facts₀]

def dot_S2048x4096_S4096x2048_S2048x2048_1_0_0_1_n_n : DotDims S2048x4096 S4096x2048 S2048x2048 where
  lhsContracting := [1]
  rhsContracting := [0]
  lhsNonContracting := [0]
  rhsNonContracting := [1]
  lhsBatch := []
  rhsBatch := []
  wf := dot_S2048x4096_S4096x2048_S2048x2048_1_0_0_1_n_n_wf

class Facts : Prop extends Facts₀ where

variable [Facts]
-- ==== Proof.MguSpec.lean ====
/-
  The cell's update, one batch row at a time, over the extended reals.

  A row of the batch is a pair of vectors of 2048 entries: `h`, the previous state, and `x`, the input. The forget
  weights come as the half `w1` that meets the state and the half `w2` that meets the input, the candidate weights
  likewise as `n1` and `n2`; `b` and `c` are the two bias vectors. At hidden unit `q` the row's update is
    gate q   = ((Σ_k h k · w1 q k  +  Σ_k x k · w2 q k) + b q + 1) · ½
    gated q  = gate q · h q
    cand q   = (Σ_k gated k · n1 q k  +  Σ_k x k · n2 q k) + c q
    newState q = (cand q − gate q · cand q) + gated q.
  The candidate at `q` reads the gated state at EVERY unit `k` of the same row, and nothing of any other row: the update
  of a row is a function of that row alone, which is why a program may compute it for 128 rows at a time.

  Nothing here names a program. Also here: the two column halves of a 2048 × 4096 weight array, and the one law of sums
  that joins a contraction over 4096 columns with the two contractions over its halves.
-/
import Idealize.ShloMosaic.Lib.ValueIdx

noncomputable section

open scoped BigOperators

namespace Cert.Mgu

open Idealize.ShloMosaic Idealize.ShloMosaic.ValueIdx

/-- A batch of 2048 rows of 2048 entries, and equally a square weight half (unit × column). -/
abbrev Sq : Shape := ⟨2, ![2048, 2048]⟩
/-- A weight array as it is given: 2048 units × 4096 columns, the state's columns first, then the input's. -/
abbrev Wide : Shape := ⟨2, ![2048, 4096]⟩
/-- A bias vector. -/
abbrev Vc : Shape := ⟨1, ![2048]⟩

/-- The number one, as the float word both programs write. -/
def one : EReal := Ideal.ofBits .f32 0x3F800000#32
/-- One half, as the float word both programs write. -/
def half : EReal := Ideal.ofBits .f32 0x3F000000#32

/-- The forget gate of a row at unit `q`. -/
def gate (h x : Fin 2048 → EReal) (w1 w2 : Sq.Idx → EReal) (b : Vc.Idx → EReal) (q : Fin 2048) : EReal :=
  (((∑ k : Fin 2048, h k * w1 (ix2 q k)) + (∑ k : Fin 2048, x k * w2 (ix2 q k))) + b (ix1 q) + one) * half

/-- The gated state of a row at unit `q`. -/
def gated (h x : Fin 2048 → EReal) (w1 w2 : Sq.Idx → EReal) (b : Vc.Idx → EReal) (q : Fin 2048) : EReal :=
  gate h x w1 w2 b q * h q

/-- The candidate of a row at unit `q`: it contracts the row's whole gated state. -/
def cand (h x : Fin 2048 → EReal) (w1 w2 : Sq.Idx → EReal) (b : Vc.Idx → EReal) (n1 n2 : Sq.Idx → EReal)
    (c : Vc.Idx → EReal) (q : Fin 2048) : EReal :=
  ((∑ k : Fin 2048, gated h x w1 w2 b k * n1 (ix2 q k)) + (∑ k : Fin 2048, x k * n2 (ix2 q k))) + c (ix1 q)

/-- The new state of a row at unit `q`. -/
def newState (h x : Fin 2048 → EReal) (w1 w2 : Sq.Idx → EReal) (b : Vc.Idx → EReal) (n1 n2 : Sq.Idx → EReal)
    (c : Vc.Idx → EReal) (q : Fin 2048) : EReal :=
  (cand h x w1 w2 b n1 n2 c q - gate h x w1 w2 b q * cand h x w1 w2 b n1 n2 c q) + gated h x w1 w2 b q

/-- Row `r` of a matrix with 2048 columns, whatever the number of rows. -/
def row {n : Nat} (a : (⟨2, ![n, 2048]⟩ : Shape).Idx → EReal) (r : Fin n) : Fin 2048 → EReal := fun k => a (ix2 r k)

/-- THE WHOLE BATCH: entry `(r, q)` is the new state of row `r` at unit `q`. -/
def cell (hx inp : Sq.Idx → EReal) (w1 w2 : Sq.Idx → EReal) (b : Vc.Idx → EReal) (n1 n2 : Sq.Idx → EReal)
    (c : Vc.Idx → EReal) : Sq.Idx → EReal :=
  fun i => newState (row hx (i 0)) (row inp (i 0)) w1 w2 b n1 n2 c (i 1)

theorem cell_apply (hx inp : Sq.Idx → EReal) (w1 w2 : Sq.Idx → EReal) (b : Vc.Idx → EReal) (n1 n2 : Sq.Idx → EReal)
    (c : Vc.Idx → EReal) (r q : Fin 2048) :
    cell hx inp w1 w2 b n1 n2 c (ix2 r q) = newState (row hx r) (row inp r) w1 w2 b n1 n2 c q := rfl

/-! ## The two halves of a wide weight array -/

/-- Column `k` of the state's half, as a column of the wide array. -/
def lo (k : Fin 2048) : Fin 4096 := ⟨k.val, by omega⟩
/-- Column `k` of the input's half, as a column of the wide array. -/
def hi (k : Fin 2048) : Fin 4096 := ⟨2048 + k.val, by omega⟩

/-- The half of a wide weight array that meets the state: its first 2048 columns. -/
def stateHalf (w : Wide.Idx → EReal) : Sq.Idx → EReal := fun j => w (ix2 (j 0) (lo (j 1)))
/-- The half that meets the input: its last 2048 columns. -/
def inputHalf (w : Wide.Idx → EReal) : Sq.Idx → EReal := fun j => w (ix2 (j 0) (hi (j 1)))

theorem stateHalf_apply (w : Wide.Idx → EReal) (q k : Fin 2048) : stateHalf w (ix2 q k) = w (ix2 q (lo k)) := rfl
theorem inputHalf_apply (w : Wide.Idx → EReal) (q k : Fin 2048) : inputHalf w (ix2 q k) = w (ix2 q (hi k)) := rfl

/-- A sum over the 4096 columns is the sum over the first 2048 plus the sum over the last 2048. It holds in every
    commutative monoid, so on the extended reals too, infinities included: no term is moved across another. -/
theorem sum_halves {M : Type*} [AddCommMonoid M] (f : Fin 4096 → M) :
    ∑ k : Fin 4096, f k = (∑ k : Fin 2048, f (lo k)) + ∑ k : Fin 2048, f (hi k) :=
  Fin.sum_univ_add (a := 2048) (b := 2048) f

end Cert.Mgu

end
-- ==== Proof.MguBody.lean ====
/-
  What the kernel's body stores, entry by entry.

  At a grid point the body holds 128 rows of the state and of the input, the four weight halves whole, and the two bias
  vectors. Each of its four matrix products takes a 128 × 2048 block and a 2048 × 2048 weight half and contracts the
  block's row with the half's row `q` (a weight half is stored unit × column, so no transpose is written); it accumulates
  into zero, so its entry `(p, q)` is Σ_k block p k · half q k and nothing else. The changes of float format on the way
  into a product are the identity on the extended reals, and the shape cast of a weight half to its own shape is the
  identity. A bias enters as a [1, 2048] row repeated down the 128 rows. Everything else is entry by entry. So entry
  `(p, q)` of the stored block is the specification's new state of the block's row `p` at unit `q`.

  Last: if the two 128-row blocks are the rows `o, …, o + 127` of a whole batch, the stored block is those rows of the
  whole batch's cell — the update of a row reads that row alone.
-/
import proofs.«158211_j29540785062379_2_alg».proof.Proof.Gen.KernelIdeal.Skeleton
import proofs.«158211_j29540785062379_2_alg».proof.Proof.MguSpec
import Idealize.ShloMosaic.Lib.ValueLayout
import Idealize.ShloMosaic.PureOps.Ideal.Laws

noncomputable section

open scoped BigOperators

namespace Cert.Mgu.Body

open Cert.KernelIdeal Cert.KernelIdeal.Gen Idealize.ShloMosaic Idealize.ShloMosaic.ValueIdx Cert.Mgu

/-! ## One matrix product at an entry -/

/-- The product's left operand is read at the output's row … -/
theorem lhs_row (i : S128x2048.Idx) (κ : dot_S128x2048_S2048x2048_S128x2048_1_1_0_0_n_n.contr.Idx) : (dot_S128x2048_S2048x2048_S128x2048_1_1_0_0_n_n.lhsIdx i κ 0).val = (i 0).val := by
  unfold DotDims.lhsIdx
  rw [dif_neg (show ¬(0 : Fin S128x2048.rank) ∈ dot_S128x2048_S2048x2048_S128x2048_1_1_0_0_n_n.lhsBatch by decide),
    dif_pos (show (0 : Fin S128x2048.rank) ∈ dot_S128x2048_S2048x2048_S128x2048_1_1_0_0_n_n.lhsNonContracting by decide)]
  rfl

/-- … and its right operand, a weight half, at the row named by the output's column. -/
theorem rhs_row (i : S128x2048.Idx) (κ : dot_S128x2048_S2048x2048_S128x2048_1_1_0_0_n_n.contr.Idx) : (dot_S128x2048_S2048x2048_S128x2048_1_1_0_0_n_n.rhsIdx i κ 0).val = (i 1).val := by
  unfold DotDims.rhsIdx
  rw [dif_neg (show ¬(0 : Fin S2048x2048.rank) ∈ dot_S128x2048_S2048x2048_S128x2048_1_1_0_0_n_n.rhsBatch by decide),
    dif_pos (show (0 : Fin S2048x2048.rank) ∈ dot_S128x2048_S2048x2048_S128x2048_1_1_0_0_n_n.rhsNonContracting by decide)]
  rfl

/-- A block times a weight half, accumulated into zero, at entry `(p, q)`: the block's row `p` contracted with the
    half's row `q`. The narrowing of the block to bf16 and the cast of the half to its own shape change nothing. -/
theorem product_apply (x : FVec Ideal S128x2048 .f32) (w : FVec Ideal S2048x2048 .bf16) (p : Fin 128) (q : Fin 2048) :
    matmul dot_S128x2048_S2048x2048_S128x2048_1_1_0_0_n_n none (truncf .bf16 x bitsLt_bf16_f32) (shapeCast S2048x2048 w shapeCasts_S2048x2048_S2048x2048)
        (constant S128x2048 .f32 0x00000000#32) (ix2 p q)
      = ∑ k : Fin 2048, row x p k * w (ix2 q k) := by
  rw [shapeCast_self]
  simp only [matmul]
  rw [Ideal.matmul_constant_zero_apply, ← Equiv.sum_comp (contrEquiv1 dot_S128x2048_S2048x2048_S128x2048_1_1_0_0_n_n 2048 rfl rfl).symm]
  refine Finset.sum_congr rfl fun k _ => ?_
  have hk := contrEquiv1_symm_val dot_S128x2048_S2048x2048_S128x2048_1_1_0_0_n_n 2048 rfl rfl k
  have el : dot_S128x2048_S2048x2048_S128x2048_1_1_0_0_n_n.lhsIdx (ix2 p q) ((contrEquiv1 dot_S128x2048_S2048x2048_S128x2048_1_1_0_0_n_n 2048 rfl rfl).symm k) = ix2 p k := funext fun a => Fin.ext (by
    match a with
    | ⟨0, _⟩ => exact lhs_row _ _
    | ⟨1, _⟩ => exact (dot_S128x2048_S2048x2048_S128x2048_1_1_0_0_n_n.lhsIdx_val_of_single rfl _ _).trans hk)
  have er : dot_S128x2048_S2048x2048_S128x2048_1_1_0_0_n_n.rhsIdx (ix2 p q) ((contrEquiv1 dot_S128x2048_S2048x2048_S128x2048_1_1_0_0_n_n 2048 rfl rfl).symm k) = ix2 q k := funext fun a => Fin.ext (by
    match a with
    | ⟨0, _⟩ => exact rhs_row _ _
    | ⟨1, _⟩ => exact (dot_S128x2048_S2048x2048_S128x2048_1_1_0_0_n_n.rhsIdx_val_of_single rfl _ _).trans hk)
  rw [el, er]
  rfl

/-- A bias vector made a [1, 2048] row and repeated down the 128 rows reads the bias at the column. -/
theorem bias_apply (b : FVec Ideal S2048 .f32) (p : Fin 128) (q : Fin 2048) :
    broadcastTo S128x2048 (shapeCast S1x2048 b shapeCasts_S2048_S1x2048) broadcasts_S1x2048_S128x2048 (ix2 p q) = b (ix1 q) :=
  (broadcastTo_1b_ab_apply _ _ p q).trans (shapeCast_a_1a_apply b _ 0 q)

/-! ## The body's blocks -/

/-- The forget gate of the 128 rows, as the body computes it. -/
def gateBlock (x0 x1 : FVec Ideal S128x2048 .f32) (w1 w2 : FVec Ideal S2048x2048 .bf16) (b : FVec Ideal S2048 .f32) :
    FVec Ideal S128x2048 .f32 :=
  mulf (addf (addf (addf
      (matmul dot_S128x2048_S2048x2048_S128x2048_1_1_0_0_n_n none (truncf .bf16 x0 bitsLt_bf16_f32) (shapeCast S2048x2048 w1 shapeCasts_S2048x2048_S2048x2048) (constant S128x2048 .f32 0x00000000#32))
      (matmul dot_S128x2048_S2048x2048_S128x2048_1_1_0_0_n_n none (truncf .bf16 x1 bitsLt_bf16_f32) (shapeCast S2048x2048 w2 shapeCasts_S2048x2048_S2048x2048) (constant S128x2048 .f32 0x00000000#32)))
      (broadcastTo S128x2048 (shapeCast S1x2048 b shapeCasts_S2048_S1x2048) broadcasts_S1x2048_S128x2048))
      (broadcast S128x2048 (Scalar.ofBits .f32 0x3F800000#32)))
    (broadcast S128x2048 (Scalar.ofBits .f32 0x3F000000#32))

theorem gateBlock_apply (x0 x1 : FVec Ideal S128x2048 .f32) (w1 w2 : FVec Ideal S2048x2048 .bf16) (b : FVec Ideal S2048 .f32)
    (p : Fin 128) (q : Fin 2048) :
    gateBlock x0 x1 w1 w2 b (ix2 p q) = gate (row x0 p) (row x1 p) w1 w2 b q := by
  unfold gateBlock
  rw [mulf_apply, addf_apply, addf_apply, addf_apply, product_apply, product_apply, bias_apply]
  rfl

/-- The candidate of the 128 rows, as the body computes it: it contracts the gated state, the gate times the state. -/
def candBlock (x0 x1 : FVec Ideal S128x2048 .f32) (w1 w2 : FVec Ideal S2048x2048 .bf16) (b : FVec Ideal S2048 .f32)
    (n1 n2 : FVec Ideal S2048x2048 .bf16) (c : FVec Ideal S2048 .f32) : FVec Ideal S128x2048 .f32 :=
  addf (addf
      (matmul dot_S128x2048_S2048x2048_S128x2048_1_1_0_0_n_n none (truncf .bf16 (mulf (gateBlock x0 x1 w1 w2 b) x0) bitsLt_bf16_f32) (shapeCast S2048x2048 n1 shapeCasts_S2048x2048_S2048x2048) (constant S128x2048 .f32 0x00000000#32))
      (matmul dot_S128x2048_S2048x2048_S128x2048_1_1_0_0_n_n none (truncf .bf16 x1 bitsLt_bf16_f32) (shapeCast S2048x2048 n2 shapeCasts_S2048x2048_S2048x2048) (constant S128x2048 .f32 0x00000000#32)))
    (broadcastTo S128x2048 (shapeCast S1x2048 c shapeCasts_S2048_S1x2048) broadcasts_S1x2048_S128x2048)

/-- A row of the gate block times the state block is the row's gated state. -/
theorem gated_row (x0 x1 : FVec Ideal S128x2048 .f32) (w1 w2 : FVec Ideal S2048x2048 .bf16) (b : FVec Ideal S2048 .f32)
    (p : Fin 128) (k : Fin 2048) :
    row (mulf (gateBlock x0 x1 w1 w2 b) x0) p k = gated (row x0 p) (row x1 p) w1 w2 b k := by
  show gateBlock x0 x1 w1 w2 b (ix2 p k) * x0 (ix2 p k) = _
  rw [gateBlock_apply]
  rfl

theorem candBlock_apply (x0 x1 : FVec Ideal S128x2048 .f32) (w1 w2 : FVec Ideal S2048x2048 .bf16) (b : FVec Ideal S2048 .f32)
    (n1 n2 : FVec Ideal S2048x2048 .bf16) (c : FVec Ideal S2048 .f32) (p : Fin 128) (q : Fin 2048) :
    candBlock x0 x1 w1 w2 b n1 n2 c (ix2 p q) = cand (row x0 p) (row x1 p) w1 w2 b n1 n2 c q := by
  unfold candBlock
  rw [addf_apply, addf_apply, product_apply, product_apply, bias_apply]
  simp only [gated_row]
  rfl

/-- The stored block is: candidate − gate · candidate + gate · state, entry by entry. -/
theorem stored_eq (x0 x1 : FVec Ideal S128x2048 .f32) (w1 w2 : FVec Ideal S2048x2048 .bf16) (b : FVec Ideal S2048 .f32)
    (n1 n2 : FVec Ideal S2048x2048 .bf16) (c : FVec Ideal S2048 .f32) :
    k0_pay1 (F := Ideal) x0 x1 w1 w2 b n1 n2 c
      = addf (subf (candBlock x0 x1 w1 w2 b n1 n2 c) (mulf (gateBlock x0 x1 w1 w2 b) (candBlock x0 x1 w1 w2 b n1 n2 c)))
          (mulf (gateBlock x0 x1 w1 w2 b) x0) := rfl

/-- ENTRY `(p, q)` OF THE STORED BLOCK is the new state of the block's row `p` at unit `q`. -/
theorem stored_apply (x0 x1 : FVec Ideal S128x2048 .f32) (w1 w2 : FVec Ideal S2048x2048 .bf16) (b : FVec Ideal S2048 .f32)
    (n1 n2 : FVec Ideal S2048x2048 .bf16) (c : FVec Ideal S2048 .f32) (p : Fin 128) (q : Fin 2048) :
    k0_pay1 (F := Ideal) x0 x1 w1 w2 b n1 n2 c (ix2 p q) = newState (row x0 p) (row x1 p) w1 w2 b n1 n2 c q := by
  rw [stored_eq, addf_apply, subf_apply, mulf_apply, mulf_apply, candBlock_apply, gateBlock_apply]
  rfl

/-! ## A block of rows of a whole batch -/

/-- If the state block and the input block are the rows `o, …, o + 127` of a whole batch — read through ONE map `e` of
    block indices to batch indices that moves the row by `o` and keeps the column — then the stored block is the same
    rows of the whole batch's cell. -/
theorem stored_is_cell (hx inp : FVec Ideal S2048x2048 .f32) (w1 w2 : FVec Ideal S2048x2048 .bf16) (b : FVec Ideal S2048 .f32)
    (n1 n2 : FVec Ideal S2048x2048 .bf16) (c : FVec Ideal S2048 .f32) (e : S128x2048.Idx → S2048x2048.Idx) (o : Nat)
    (hrow : ∀ (p : Fin 128) (k : Fin 2048), ((e (ix2 p k)) 0).val = o + p.val)
    (hcol : ∀ (p : Fin 128) (k : Fin 2048), ((e (ix2 p k)) 1).val = k.val) (y : S128x2048.Idx) :
    k0_pay1 (F := Ideal) (fun y => hx (e y)) (fun y => inp (e y)) w1 w2 b n1 n2 c y = cell hx inp w1 w2 b n1 n2 c (e y) := by
  obtain ⟨p, q, rfl⟩ : ∃ (p : Fin 128) (q : Fin 2048), y = ix2 p q := ⟨y 0, y 1, eq_ix2 y⟩
  have hlt : o + p.val < 2048 := by
    have h : ((e (ix2 p q)) 0).val < 2048 := ((e (ix2 p q)) 0).isLt
    rw [hrow p q] at h
    exact h
  have he : ∀ k : Fin 2048, e (ix2 p k) = ix2 (⟨o + p.val, hlt⟩ : Fin 2048) k := fun k => funext fun a => Fin.ext (by
    match a with
    | ⟨0, _⟩ => exact hrow p k
    | ⟨1, _⟩ => exact hcol p k)
  have r0 : row (fun y => hx (e y)) p = row hx (⟨o + p.val, hlt⟩ : Fin 2048) := funext fun k => by
    show hx (e (ix2 p k)) = hx (ix2 _ k)
    rw [he k]
  have r1 : row (fun y => inp (e y)) p = row inp (⟨o + p.val, hlt⟩ : Fin 2048) := funext fun k => by
    show inp (e (ix2 p k)) = inp (ix2 _ k)
    rw [he k]
  rw [stored_apply, he q, cell_apply, r0, r1]

end Cert.Mgu.Body

end
-- ==== Proof.MguKernel.lean ====
/-
  The kernel's result array is the cell of its arguments.

  The grid has 16 points; point `t` stages rows `128 t, …, 128 t + 127` of the state and of the input, all of each weight
  half and bias, and writes back the same rows of the result. So the state's and the input's blocks are their arrays read
  through the very map of block indices to array indices that the result's block uses (row moved by `128 t`, column
  kept), a weight half's or a bias's block is the whole array, and by the body's value what point `t` writes back is
  rows `128 t …` of the cell of the arrays the call finds. Row `r` of the result lies in the block of point `r / 128`, so
  the sixteen blocks cover the array, and it ends holding that cell.

  The arrays the call finds: the state, the input and the biases as launched; each weight half as the host made it
  before the call, a slice of 2048 columns of the wide weight array narrowed to bf16 — on the extended reals just those
  columns.
-/
import proofs.«158211_j29540785062379_2_alg».proof.Proof.Gen.KernelIdeal.Value
import proofs.«158211_j29540785062379_2_alg».proof.Proof.MguBody
import Idealize.ShloMosaic.Lib.Pipeline.Value
import Idealize.ShloMosaic.Lib.ValueLayout
import Idealize.ShloMosaic.Lib.StableHlo.Run

noncomputable section

namespace Cert.Mgu.Kernel

open Cert.KernelIdeal Cert.KernelIdeal.Gen Idealize.ShloMosaic Idealize.ShloMosaic.TcCoe Idealize.SL.Sem
open Idealize.ShloMosaic.ValueIdx Cert.Mgu
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The printed index maps, decided over the 16 points: the state's, the input's and the result's blocks are block
    `(t, 0)`; a weight half's and a bias's block is the one block there is. -/
theorem idx_facts : ∀ t : Fin cfg0.N,
    win0_8.index t (0 : Fin 2) = t.val ∧ win0_8.index t (1 : Fin 2) = 0
    ∧ win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_4.index t (0 : Fin 1) = 0 ∧ win0_7.index t (0 : Fin 1) = 0 :=
  (by decide +kernel : ∀ t : Fin grid0.N, _)

/-! ## The input blocks as reads of their arrays -/

/-- The state's block at point `t` is the state read where the result's block lies. -/
theorem state_block (c : Dev nD) (t : Fin cfg0.N) (y : S128x2048.Idx) :
    iblk m c 0 t y = V m c main_arg1 (((cfg0.win 8).blk t).view.emb y) := by
  obtain ⟨e80, e81, e00, e01, -⟩ := idx_facts t
  show V m c main_arg1 (((cfg0.win 0).blk t).view.emb y) = V m c main_arg1 (((cfg0.win 8).blk t).view.emb y)
  have h : ((cfg0.win 0).blk t).view.emb y = ((cfg0.win 8).blk t).view.emb y := by
    funext a; apply Fin.ext
    match a with
    | ⟨0, _⟩ => show win0_0.index t (0 : Fin 2) * 128 + 1 * (y 0).val = win0_8.index t (0 : Fin 2) * 128 + 1 * (y 0).val; rw [e00, e80]
    | ⟨1, _⟩ => show win0_0.index t (1 : Fin 2) * 2048 + 1 * (y 1).val = win0_8.index t (1 : Fin 2) * 2048 + 1 * (y 1).val; rw [e01, e81]
  rw [h]

/-- The input's block likewise. -/
theorem input_block (c : Dev nD) (t : Fin cfg0.N) (y : S128x2048.Idx) :
    iblk m c 1 t y = V m c main_arg0 (((cfg0.win 8).blk t).view.emb y) := by
  obtain ⟨e80, e81, -, -, e10, e11, -⟩ := idx_facts t
  show V m c main_arg0 (((cfg0.win 1).blk t).view.emb y) = V m c main_arg0 (((cfg0.win 8).blk t).view.emb y)
  have h : ((cfg0.win 1).blk t).view.emb y = ((cfg0.win 8).blk t).view.emb y := by
    funext a; apply Fin.ext
    match a with
    | ⟨0, _⟩ => show win0_1.index t (0 : Fin 2) * 128 + 1 * (y 0).val = win0_8.index t (0 : Fin 2) * 128 + 1 * (y 0).val; rw [e10, e80]
    | ⟨1, _⟩ => show win0_1.index t (1 : Fin 2) * 2048 + 1 * (y 1).val = win0_8.index t (1 : Fin 2) * 2048 + 1 * (y 1).val; rw [e11, e81]
  rw [h]

/-- A weight half's block is the whole half: the state's forget weights … -/
theorem forget_state_block (c : Dev nD) (t : Fin cfg0.N) : iblk m c 2 t = V m c main_v1 := by
  obtain ⟨-, -, -, -, -, -, e0, e1, -⟩ := idx_facts t
  funext y
  show V m c main_v1 (((cfg0.win 2).blk t).view.emb y) = V m c main_v1 y
  have h : ((cfg0.win 2).blk t).view.emb y = y := by
    funext a; apply Fin.ext
    match a with
    | ⟨0, _⟩ => show win0_2.index t (0 : Fin 2) * 2048 + 1 * (y 0).val = (y 0).val; rw [e0]; omega
    | ⟨1, _⟩ => show win0_2.index t (1 : Fin 2) * 2048 + 1 * (y 1).val = (y 1).val; rw [e1]; omega
  rw [h]

/-- … the input's forget weights … -/
theorem forget_input_block (c : Dev nD) (t : Fin cfg0.N) : iblk m c 3 t = V m c main_v3 := by
  obtain ⟨-, -, -, -, -, -, -, -, e0, e1, -⟩ := idx_facts t
  funext y
  show V m c main_v3 (((cfg0.win 3).blk t).view.emb y) = V m c main_v3 y
  have h : ((cfg0.win 3).blk t).view.emb y = y := by
    funext a; apply Fin.ext
    match a with
    | ⟨0, _⟩ => show win0_3.index t (0 : Fin 2) * 2048 + 1 * (y 0).val = (y 0).val; rw [e0]; omega
    | ⟨1, _⟩ => show win0_3.index t (1 : Fin 2) * 2048 + 1 * (y 1).val = (y 1).val; rw [e1]; omega
  rw [h]

/-- … the state's candidate weights … -/
theorem cand_state_block (c : Dev nD) (t : Fin cfg0.N) : iblk m c 5 t = V m c main_v5 := by
  obtain ⟨-, -, -, -, -, -, -, -, -, -, e0, e1, -⟩ := idx_facts t
  funext y
  show V m c main_v5 (((cfg0.win 5).blk t).view.emb y) = V m c main_v5 y
  have h : ((cfg0.win 5).blk t).view.emb y = y := by
    funext a; apply Fin.ext
    match a with
    | ⟨0, _⟩ => show win0_5.index t (0 : Fin 2) * 2048 + 1 * (y 0).val = (y 0).val; rw [e0]; omega
    | ⟨1, _⟩ => show win0_5.index t (1 : Fin 2) * 2048 + 1 * (y 1).val = (y 1).val; rw [e1]; omega
  rw [h]

/-- … and the input's candidate weights. -/
theorem cand_input_block (c : Dev nD) (t : Fin cfg0.N) : iblk m c 6 t = V m c main_v7 := by
  obtain ⟨-, -, -, -, -, -, -, -, -, -, -, -, e0, e1, -⟩ := idx_facts t
  funext y
  show V m c main_v7 (((cfg0.win 6).blk t).view.emb y) = V m c main_v7 y
  have h : ((cfg0.win 6).blk t).view.emb y = y := by
    funext a; apply Fin.ext
    match a with
    | ⟨0, _⟩ => show win0_6.index t (0 : Fin 2) * 2048 + 1 * (y 0).val = (y 0).val; rw [e0]; omega
    | ⟨1, _⟩ => show win0_6.index t (1 : Fin 2) * 2048 + 1 * (y 1).val = (y 1).val; rw [e1]; omega
  rw [h]

/-- A bias's block is the whole bias: the forget bias … -/
theorem forget_bias_block (c : Dev nD) (t : Fin cfg0.N) : iblk m c 4 t = V m c main_arg3 := by
  obtain ⟨-, -, -, -, -, -, -, -, -, -, -, -, -, -, e0, -⟩ := idx_facts t
  funext y
  show V m c main_arg3 (((cfg0.win 4).blk t).view.emb y) = V m c main_arg3 y
  have h : ((cfg0.win 4).blk t).view.emb y = y := by
    funext a; apply Fin.ext
    match a with
    | ⟨0, _⟩ => show win0_4.index t (0 : Fin 1) * 2048 + 1 * (y 0).val = (y 0).val; rw [e0]; omega
  rw [h]

/-- … and the candidate bias. -/
theorem cand_bias_block (c : Dev nD) (t : Fin cfg0.N) : iblk m c 7 t = V m c main_arg5 := by
  obtain ⟨-, -, -, -, -, -, -, -, -, -, -, -, -, -, -, e0⟩ := idx_facts t
  funext y
  show V m c main_arg5 (((cfg0.win 7).blk t).view.emb y) = V m c main_arg5 y
  have h : ((cfg0.win 7).blk t).view.emb y = y := by
    funext a; apply Fin.ext
    match a with
    | ⟨0, _⟩ => show win0_7.index t (0 : Fin 1) * 2048 + 1 * (y 0).val = (y 0).val; rw [e0]; omega
  rw [h]

/-! ## What a point writes back -/

/-- The cell of the arrays as the call finds them. -/
def found (c : Dev nD) : S2048x2048.Idx → EReal :=
  cell (V m c main_arg1) (V m c main_arg0) (V m c main_v1) (V m c main_v3) (V m c main_arg3) (V m c main_v5) (V m c main_v7)
    (V m c main_arg5)

/-- WHAT POINT `t` WRITES BACK is its block of the cell of the arrays the call finds. -/
theorem flushed_eq (c : Dev nD) (t : Fin cfg0.N) :
    (dats m 0 c).flushed 8 t = ((cfg0.win 8).blk t).view.read (Elt Ideal) (found m c) := by
  rw [Cert.KernelIdeal.Value.flushed8]
  unfold out0_8
  rw [View.canon_unit_zero hz2]
  simp only [View.ld_unit_zero (S := S128x2048) hz2, View.ld_unit_zero (S := S2048x2048) hz2, View.ld_unit_zero (S := S2048) hz1]
  rw [forget_state_block, forget_input_block, forget_bias_block, cand_state_block, cand_input_block, cand_bias_block]
  obtain ⟨e80, e81, -⟩ := idx_facts t
  funext j
  show k0_pay1 (F := Ideal) (iblk m c 0 t) (iblk m c 1 t) (V m c main_v1) (V m c main_v3) (V m c main_arg3) (V m c main_v5)
      (V m c main_v7) (V m c main_arg5) j = found m c (((cfg0.win 8).blk t).view.emb j)
  have h0 : (iblk m c 0 t : S128x2048.Idx → EReal) = fun y => V m c main_arg1 (((cfg0.win 8).blk t).view.emb y) :=
    funext fun y => state_block m c t y
  have h1 : (iblk m c 1 t : S128x2048.Idx → EReal) = fun y => V m c main_arg0 (((cfg0.win 8).blk t).view.emb y) :=
    funext fun y => input_block m c t y
  rw [h0, h1]
  exact Body.stored_is_cell (V m c main_arg1) (V m c main_arg0) (V m c main_v1) (V m c main_v3) (V m c main_arg3)
    (V m c main_v5) (V m c main_v7) (V m c main_arg5) (fun y => ((cfg0.win 8).blk t).view.emb y) (t.val * 128)
    (fun p k => by
      show win0_8.index t (0 : Fin 2) * 128 + 1 * p.val = t.val * 128 + p.val
      rw [e80]; omega)
    (fun p k => by
      show win0_8.index t (1 : Fin 2) * 2048 + 1 * k.val = k.val
      rw [e81]; omega)
    j

/-! ## The sixteen blocks cover the array -/

/-- An index is in point `t`'s block iff each coordinate is in the block's range on its axis. -/
theorem mem_blk (t : Fin cfg0.N) (i : S2048x2048.Idx) :
    i ∈ ((cfg0.win 8).blk t).view.set ↔ ∀ a : Fin 2, win0_8.index t a * S128x2048.size a ≤ (i a).val ∧ (i a).val < win0_8.index t a * S128x2048.size a + S128x2048.size a := by
  show i ∈ ((View.whole main_v8).slice (win0_8.rect t)).set ↔ _
  rw [View.set_slice_whole, Rect.mem_set_unit]
  exact Iff.rfl

/-- Row `r` lies in the block of point `r / 128`. -/
theorem covered (i : S2048x2048.Idx) :
    ∃ t : Fin cfg0.N, (cfg0.win 8).flush t = true ∧ i ∈ ((cfg0.win 8).blk t).view.set := by
  have hN : grid0.N = 16 := N_0
  have hi0 : (i 0).val < 2048 := (i 0).isLt
  have hi1 : (i 1).val < 2048 := (i 1).isLt
  obtain ⟨t, ht⟩ : ∃ t : Fin cfg0.N, t.val = (i 0).val / 128 :=
    ⟨⟨(i 0).val / 128, by show (i 0).val / 128 < grid0.N; rw [hN]; omega⟩, rfl⟩
  obtain ⟨e80, e81, -⟩ := idx_facts t
  refine ⟨t, flush0_8 t, ?_⟩
  rw [mem_blk]
  intro a
  match a with
  | ⟨0, _⟩ =>
    show win0_8.index t (0 : Fin 2) * 128 ≤ (i 0).val ∧ (i 0).val < win0_8.index t (0 : Fin 2) * 128 + 128
    rw [e80, ht]; omega
  | ⟨1, _⟩ =>
    show win0_8.index t (1 : Fin 2) * 2048 ≤ (i 1).val ∧ (i 1).val < win0_8.index t (1 : Fin 2) * 2048 + 2048
    rw [e81]; omega

/-- THE RESULT ARRAY after the run is the cell of the arrays the call finds. -/
theorem final (c : Dev nD) : (dats m 0 c).arrAt 8 cfg0.N = found m c :=
  (dats m 0 c).arrAt_eq_of_cover 8 (found m c) (fun t _ => flushed_eq m c t) (covered)

/-! ## The weight halves the host makes before the call -/

/-- The state's forget weights: the first 2048 columns of the forget weight array. -/
theorem forget_state_eq (c : Dev nD) :
    (V m c main_v1 : S2048x2048.Idx → EReal) = stateHalf (m ((c : Thread nD τ).loc main_arg2)) := by
  have e : @Eq (FVec Ideal S2048x2048 .bf16) (V m c main_v1)
      (truncf .bf16 (extractStridedSlice S2048x2048 ![0, 0] (m ((c : Thread nD τ).loc main_arg2)) slices_S2048x4096_S2048x2048_0_0) bitsLt_bf16_f32) := by
    dsimp only [Gen.V, Gen.hostOps0]; after_results
  rw [e]
  funext j
  obtain ⟨q, k, rfl⟩ : ∃ (q k : Fin 2048), j = ix2 q k := ⟨j 0, j 1, eq_ix2 j⟩
  rw [stateHalf_apply]
  rw [truncf_apply]
  exact (slice2_axis1_apply 0 (m ((c : Thread nD τ).loc main_arg2)) slices_S2048x4096_S2048x2048_0_0 q k (lo k) (Nat.zero_add _).symm)

/-- The input's forget weights: its last 2048 columns. -/
theorem forget_input_eq (c : Dev nD) :
    (V m c main_v3 : S2048x2048.Idx → EReal) = inputHalf (m ((c : Thread nD τ).loc main_arg2)) := by
  have e : @Eq (FVec Ideal S2048x2048 .bf16) (V m c main_v3)
      (truncf .bf16 (extractStridedSlice S2048x2048 ![0, 2048] (m ((c : Thread nD τ).loc main_arg2)) slices_S2048x4096_S2048x2048_0_2048) bitsLt_bf16_f32) := by
    dsimp only [Gen.V, Gen.hostOps0]; after_results
  rw [e]
  funext j
  obtain ⟨q, k, rfl⟩ : ∃ (q k : Fin 2048), j = ix2 q k := ⟨j 0, j 1, eq_ix2 j⟩
  rw [inputHalf_apply]
  rw [truncf_apply]
  exact (slice2_axis1_apply 2048 (m ((c : Thread nD τ).loc main_arg2)) slices_S2048x4096_S2048x2048_0_2048 q k (hi k) rfl)

/-- The state's candidate weights: the first 2048 columns of the candidate weight array. -/
theorem cand_state_eq (c : Dev nD) :
    (V m c main_v5 : S2048x2048.Idx → EReal) = stateHalf (m ((c : Thread nD τ).loc main_arg4)) := by
  have e : @Eq (FVec Ideal S2048x2048 .bf16) (V m c main_v5)
      (truncf .bf16 (extractStridedSlice S2048x2048 ![0, 0] (m ((c : Thread nD τ).loc main_arg4)) slices_S2048x4096_S2048x2048_0_0) bitsLt_bf16_f32) := by
    dsimp only [Gen.V, Gen.hostOps0]; after_results
  rw [e]
  funext j
  obtain ⟨q, k, rfl⟩ : ∃ (q k : Fin 2048), j = ix2 q k := ⟨j 0, j 1, eq_ix2 j⟩
  rw [stateHalf_apply]
  rw [truncf_apply]
  exact (slice2_axis1_apply 0 (m ((c : Thread nD τ).loc main_arg4)) slices_S2048x4096_S2048x2048_0_0 q k (lo k) (Nat.zero_add _).symm)

/-- The input's candidate weights: its last 2048 columns. -/
theorem cand_input_eq (c : Dev nD) :
    (V m c main_v7 : S2048x2048.Idx → EReal) = inputHalf (m ((c : Thread nD τ).loc main_arg4)) := by
  have e : @Eq (FVec Ideal S2048x2048 .bf16) (V m c main_v7)
      (truncf .bf16 (extractStridedSlice S2048x2048 ![0, 2048] (m ((c : Thread nD τ).loc main_arg4)) slices_S2048x4096_S2048x2048_0_2048) bitsLt_bf16_f32) := by
    dsimp only [Gen.V, Gen.hostOps0]; after_results
  rw [e]
  funext j
  obtain ⟨q, k, rfl⟩ : ∃ (q k : Fin 2048), j = ix2 q k := ⟨j 0, j 1, eq_ix2 j⟩
  rw [inputHalf_apply]
  rw [truncf_apply]
  exact (slice2_axis1_apply 2048 (m ((c : Thread nD τ).loc main_arg4)) slices_S2048x4096_S2048x2048_0_2048 q k (hi k) rfl)

/-- So the cell of the arrays the call finds is the cell of the arguments as launched. -/
theorem found_eq (c : Dev nD) :
    found m c = cell (m ((c : Thread nD τ).loc main_arg1)) (m ((c : Thread nD τ).loc main_arg0))
      (stateHalf (m ((c : Thread nD τ).loc main_arg2))) (inputHalf (m ((c : Thread nD τ).loc main_arg2)))
      (m ((c : Thread nD τ).loc main_arg3))
      (stateHalf (m ((c : Thread nD τ).loc main_arg4))) (inputHalf (m ((c : Thread nD τ).loc main_arg4)))
      (m ((c : Thread nD τ).loc main_arg5)) := by
  unfold found
  rw [forget_state_eq, forget_input_eq, cand_state_eq, cand_input_eq, V_main_arg0, V_main_arg1, V_main_arg3, V_main_arg5]

/-! ## The run, read -/

/-- Every weakly fair execution of the kernel's program ends with the result array at the cell of the arguments, the
    arguments unchanged. -/
theorem run : θ_run defs (onTc (τ := τ) (main (F := Ideal))) ⟨m, fun _ => 0, ρ⟩ fun r => ∀ c : Dev nD,
      r.2.mem ((c : Thread nD τ).loc main_v8) = cell (m ((c : Thread nD τ).loc main_arg1)) (m ((c : Thread nD τ).loc main_arg0))
        (stateHalf (m ((c : Thread nD τ).loc main_arg2))) (inputHalf (m ((c : Thread nD τ).loc main_arg2)))
        (m ((c : Thread nD τ).loc main_arg3))
        (stateHalf (m ((c : Thread nD τ).loc main_arg4))) (inputHalf (m ((c : Thread nD τ).loc main_arg4)))
        (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨((h c).1.trans (final m c)).trans (found_eq m c), (h c).2⟩)
    (Cert.KernelIdeal.Value.run_blocks m ρ)

end Cert.Mgu.Kernel

end
-- ==== Proof.MguReference.lean ====
/-
  The reference computes the cell.

  The reference joins the state and the input side by side into a 2048 × 4096 array and contracts it, over all 4096
  columns, with the transposed weight array. Read at entry `(r, q)` that is Σ_k joined r k · w q k; the first 2048
  columns of the joined array are the state's (for the candidate: the gated state's), the last 2048 the input's, so by the
  law of sums over the two halves it is the state's contraction with the weights' first half plus the input's contraction
  with their second half. Everything after the contractions is entry by entry and is the specification's text.
-/
import proofs.«158211_j29540785062379_2_alg».proof.Proof.Gen.ReferenceIdeal.Read
import proofs.«158211_j29540785062379_2_alg».proof.Proof.MguSpec

noncomputable section

open scoped BigOperators

namespace Cert.Mgu.Ref

open Cert.ReferenceIdeal Cert.ReferenceIdeal.Gen Cert.ReferenceIdeal.Read Idealize.ShloMosaic Idealize.ShloMosaic.ValueIdx Cert.Mgu

/-! ## Where the contractions read their operands -/

/-- The forget contraction reads the joined array at row `r`, column `k` … -/
theorem lidx2 (r q : Fin 2048) (k : Fin 4096) : lidx_main_v2 (ix2 r q) k = ix2 r k :=
  funext fun a => Fin.ext (by match a with | ⟨0, _⟩ => rfl | ⟨1, _⟩ => rfl)
/-- … and the weight array, through its transpose, at unit `q`, column `k`. -/
theorem widx2 (r q : Fin 2048) (k : Fin 4096) : idx_main_v1 (ridx_main_v2 (ix2 r q) k) = ix2 q k :=
  funext fun a => Fin.ext (by match a with | ⟨0, _⟩ => rfl | ⟨1, _⟩ => rfl)
/-- The candidate contraction likewise. -/
theorem lidx13 (r q : Fin 2048) (k : Fin 4096) : lidx_main_v13 (ix2 r q) k = ix2 r k :=
  funext fun a => Fin.ext (by match a with | ⟨0, _⟩ => rfl | ⟨1, _⟩ => rfl)
theorem widx13 (r q : Fin 2048) (k : Fin 4096) : idx_main_v12 (ridx_main_v13 (ix2 r q) k) = ix2 q k :=
  funext fun a => Fin.ext (by match a with | ⟨0, _⟩ => rfl | ⟨1, _⟩ => rfl)
/-- A bias broadcast over the rows reads the bias at the unit. -/
theorem bidx4 (r q : Fin 2048) : idx_main_v3 (idx_main_v4 (ix2 r q)) = ix1 q :=
  funext fun a => Fin.ext (by match a with | ⟨0, _⟩ => rfl)
theorem bidx15 (r q : Fin 2048) : idx_main_v14 (idx_main_v15 (ix2 r q)) = ix1 q :=
  funext fun a => Fin.ext (by match a with | ⟨0, _⟩ => rfl)

/-! ## The joined arrays, read at a column of either half -/

/-- Two 2048-column arrays joined side by side: a column of the first half reads the first array … -/
theorem joined_lo (a b : (⟨S2048x2048, .f32⟩ : BufTy).Contents (Elt Ideal)) (r k : Fin 2048) :
    concatenate S2048x4096 1 [⟨S2048x2048, a⟩, ⟨S2048x2048, b⟩] concatenates_S2048x2048_S2048x2048_S2048x4096_d1 (ix2 r (lo k))
      = a (ix2 r k) :=
  concatenate_pair_apply_left (s₁ := S2048x2048) (s₂ := S2048x2048) _ a b _ (ix2 r (lo k)) rfl (ix2 r k)
    (fun c => by match c with | ⟨0, _⟩ => rfl | ⟨1, _⟩ => rfl)

/-- … and a column of the second half reads the second array, 2048 columns to the left. -/
theorem joined_hi (a b : (⟨S2048x2048, .f32⟩ : BufTy).Contents (Elt Ideal)) (r k : Fin 2048) :
    concatenate S2048x4096 1 [⟨S2048x2048, a⟩, ⟨S2048x2048, b⟩] concatenates_S2048x2048_S2048x2048_S2048x4096_d1 (ix2 r (hi k))
      = b (ix2 r k) :=
  concatenate_pair_apply_right (s₁ := S2048x2048) (s₂ := S2048x2048) _ a b _ (ix2 r (hi k)) rfl rfl (ix2 r k)
    (fun c hc => by
      match c, hc with
      | ⟨0, _⟩, _ => rfl
      | ⟨1, _⟩, hc => exact absurd rfl hc)
    (Nat.add_comm _ _)

/-! ## The forget gate -/

/-- The reference's forget contraction at `(r, q)`: the state's row against the weights' first half plus the input's row
    against their second half. -/
theorem dot_forget (x0 x1 : (⟨S2048x2048, .f32⟩ : BufTy).Contents (Elt Ideal)) (x2 : (⟨S2048x4096, .f32⟩ : BufTy).Contents (Elt Ideal))
    (r q : Fin 2048) :
    val_main_v2 (F := Ideal) x0 x1 x2 (ix2 r q)
      = (∑ k : Fin 2048, row x1 r k * stateHalf x2 (ix2 q k)) + ∑ k : Fin 2048, row x0 r k * inputHalf x2 (ix2 q k) := by
  rw [val_main_v2_apply, sum_halves]
  refine congrArg₂ (· + ·) (Finset.sum_congr rfl fun k _ => ?_) (Finset.sum_congr rfl fun k _ => ?_)
  · rw [lidx2, val_main_v1_apply, widx2]
    unfold val_main_v0
    rw [joined_lo]
    rfl
  · rw [lidx2, val_main_v1_apply, widx2]
    unfold val_main_v0
    rw [joined_hi]
    rfl

theorem gate_eq (x0 x1 : (⟨S2048x2048, .f32⟩ : BufTy).Contents (Elt Ideal)) (x2 : (⟨S2048x4096, .f32⟩ : BufTy).Contents (Elt Ideal))
    (x3 : (⟨S2048, .f32⟩ : BufTy).Contents (Elt Ideal)) (r q : Fin 2048) :
    val_main_v9 (F := Ideal) x0 x1 x2 x3 (ix2 r q) = gate (row x1 r) (row x0 r) (stateHalf x2) (inputHalf x2) x3 q := by
  rw [val_main_v9_apply, val_main_v7_apply, val_main_v5_apply, dot_forget, val_main_v4_apply, val_main_v3_apply, bidx4,
    val_main_v6_apply, val_main_cst_apply, val_main_v8_apply, val_main_cst_0_apply]
  rfl

theorem gated_eq (x0 x1 : (⟨S2048x2048, .f32⟩ : BufTy).Contents (Elt Ideal)) (x2 : (⟨S2048x4096, .f32⟩ : BufTy).Contents (Elt Ideal))
    (x3 : (⟨S2048, .f32⟩ : BufTy).Contents (Elt Ideal)) (r q : Fin 2048) :
    val_main_v10 (F := Ideal) x0 x1 x2 x3 (ix2 r q) = gated (row x1 r) (row x0 r) (stateHalf x2) (inputHalf x2) x3 q := by
  rw [val_main_v10_apply, gate_eq]
  rfl

/-! ## The candidate -/

/-- The reference's candidate contraction at `(r, q)`: the row's gated state against the weights' first half plus the
    input's row against their second half. -/
theorem dot_cand (x0 x1 : (⟨S2048x2048, .f32⟩ : BufTy).Contents (Elt Ideal)) (x2 : (⟨S2048x4096, .f32⟩ : BufTy).Contents (Elt Ideal))
    (x3 : (⟨S2048, .f32⟩ : BufTy).Contents (Elt Ideal)) (x4 : (⟨S2048x4096, .f32⟩ : BufTy).Contents (Elt Ideal)) (r q : Fin 2048) :
    val_main_v13 (F := Ideal) x0 x1 x2 x3 x4 (ix2 r q)
      = (∑ k : Fin 2048, gated (row x1 r) (row x0 r) (stateHalf x2) (inputHalf x2) x3 k * stateHalf x4 (ix2 q k))
        + ∑ k : Fin 2048, row x0 r k * inputHalf x4 (ix2 q k) := by
  rw [val_main_v13_apply, sum_halves]
  refine congrArg₂ (· + ·) (Finset.sum_congr rfl fun k _ => ?_) (Finset.sum_congr rfl fun k _ => ?_)
  · rw [lidx13, val_main_v12_apply, widx13]
    unfold val_main_v11
    rw [joined_lo, gated_eq]
    rfl
  · rw [lidx13, val_main_v12_apply, widx13]
    unfold val_main_v11
    rw [joined_hi]
    rfl

theorem cand_eq (x0 x1 : (⟨S2048x2048, .f32⟩ : BufTy).Contents (Elt Ideal)) (x2 : (⟨S2048x4096, .f32⟩ : BufTy).Contents (Elt Ideal))
    (x3 : (⟨S2048, .f32⟩ : BufTy).Contents (Elt Ideal)) (x4 : (⟨S2048x4096, .f32⟩ : BufTy).Contents (Elt Ideal))
    (x5 : (⟨S2048, .f32⟩ : BufTy).Contents (Elt Ideal)) (r q : Fin 2048) :
    val_main_v16 (F := Ideal) x0 x1 x2 x3 x4 x5 (ix2 r q)
      = cand (row x1 r) (row x0 r) (stateHalf x2) (inputHalf x2) x3 (stateHalf x4) (inputHalf x4) x5 q := by
  rw [val_main_v16_apply, dot_cand, val_main_v15_apply, val_main_v14_apply, bidx15]
  rfl

/-! ## The result -/

/-- THE REFERENCE'S RESULT is the cell of its arguments: the state is its second argument, the input its first. -/
theorem result_eq (x0 x1 : (⟨S2048x2048, .f32⟩ : BufTy).Contents (Elt Ideal)) (x2 : (⟨S2048x4096, .f32⟩ : BufTy).Contents (Elt Ideal))
    (x3 : (⟨S2048, .f32⟩ : BufTy).Contents (Elt Ideal)) (x4 : (⟨S2048x4096, .f32⟩ : BufTy).Contents (Elt Ideal))
    (x5 : (⟨S2048, .f32⟩ : BufTy).Contents (Elt Ideal)) :
    val_main_v19 (F := Ideal) x0 x1 x2 x3 x4 x5
      = cell x1 x0 (stateHalf x2) (inputHalf x2) x3 (stateHalf x4) (inputHalf x4) x5 := by
  funext i
  obtain ⟨r, q, rfl⟩ : ∃ (r q : Fin 2048), i = ix2 r q := ⟨i 0, i 1, eq_ix2 i⟩
  rw [val_main_v19_apply, val_main_v18_apply, val_main_v17_apply, cand_eq, gate_eq, gated_eq, cell_apply]
  rfl

end Cert.Mgu.Ref

end
-- ==== Proof.lean ====
/-
  A minimal gated recurrent cell, fused, against its plain reference: equal results over the extended reals.

  Both programs take a batch of 2048 states `hx` and inputs `x` (2048 entries each), two weight arrays of 2048 units ×
  4096 columns — the first 2048 columns meet the state, the last 2048 the input — and two bias vectors, and compute, row by
  row,
    gate  = ((state · Wf_stateᵀ + x · Wf_inputᵀ) + b_f + 1) · ½
    cand  = ((gate ∘ state) · Wn_stateᵀ + x · Wn_inputᵀ) + b_n
    new   = cand − gate ∘ cand + gate ∘ state.
  The reference joins state and input into one 4096-column array and contracts it with the whole weight array; the kernel
  keeps the two halves apart, 128 rows at a time, and adds the two contractions. A sum over 4096 columns is the sum over
  its first 2048 plus the sum over its last 2048 in any commutative monoid, so the two agree on every extended real:
  finiteness of the inputs is never used. The kernel's bf16 operands are a change of float format, the identity here.

  The pieces: the row-by-row specification and the law of sums (MguSpec); the reference's result is the specification of
  its arguments (MguReference, over the generated reading of the reference's operations); the kernel body's stored block
  is the specification of its 128 rows (MguBody); the sixteen blocks make the whole result array (MguKernel, over the
  generated blockwise value of the kernel's run). The three frames are the generated ones; the idealization rewrote
  nothing, so there is nothing to preserve.
-/
import proofs.«158211_j29540785062379_2_alg».proof.Defs
import proofs.«158211_j29540785062379_2_alg».proof.Proof.Gen.Kernel
import proofs.«158211_j29540785062379_2_alg».proof.Proof.Gen.Kernel.Skeleton
import proofs.«158211_j29540785062379_2_alg».proof.Proof.Gen.Kernel.Launch
import proofs.«158211_j29540785062379_2_alg».proof.Proof.Gen.Kernel.Points
import proofs.«158211_j29540785062379_2_alg».proof.Proof.Gen.Kernel.Frame
import proofs.«158211_j29540785062379_2_alg».proof.Proof.Gen.KernelIdeal
import proofs.«158211_j29540785062379_2_alg».proof.Proof.Gen.KernelIdeal.Skeleton
import proofs.«158211_j29540785062379_2_alg».proof.Proof.Gen.KernelIdeal.Launch
import proofs.«158211_j29540785062379_2_alg».proof.Proof.Gen.KernelIdeal.Points
import proofs.«158211_j29540785062379_2_alg».proof.Proof.Gen.KernelIdeal.Frame
import proofs.«158211_j29540785062379_2_alg».proof.Proof.Gen.ReferenceIdeal
import proofs.«158211_j29540785062379_2_alg».proof.Proof.Gen.Pre_finite_inputs
import proofs.«158211_j29540785062379_2_alg».proof.Proof.Gen.KernelIdeal.Value
import proofs.«158211_j29540785062379_2_alg».proof.Proof.Gen.ReferenceIdeal.Run
import proofs.«158211_j29540785062379_2_alg».proof.Proof.Gen.ReferenceIdeal.Read
import proofs.«158211_j29540785062379_2_alg».proof.Proof.MguKernel
import proofs.«158211_j29540785062379_2_alg».proof.Proof.MguReference
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does its reading over the extended reals. -/
theorem frame_kernelIdeal : Cert.frame_KernelIdeal := fun m ρ _ => Cert.KernelIdeal.Gen.frame m ρ

/-- The reference's run, its result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the cell of those arguments: the kernel's result
    array block by block, the reference's through the law of sums over the two halves of the joined columns. -/
theorem algebraic : Cert.algebraic_KernelIdeal_ReferenceIdeal := by
  intro m ρ m' ρ' _ hagree
  refine ⟨_, Cert.Mgu.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, Cert.Mgu.Ref.result_eq]
  obtain ⟨h0, h1, h2, h3, h4, h5⟩ := hagree c
  rw [h0, h1, h2, h3, h4, h5]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
